-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S2000000x8 : Shape := ⟨2, ![2000000, 8]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S2000000x8 : S_.BroadcastsInDim S2000000x8 (![] : Fin 0 → Fin S2000000x8.rank)
  reducesTo_S2000000x8_S_d0_1 : S2000000x8.ReducesTo [0, 1] S_

variable [Facts]

def fn_part1 {F : FTy → Type} [FloatOps F] (main_arg4 : FVec F S2000000 .f32) (main_arg6 : FVec F S2000000x8 .f32) (main_v13 : IVec S_ 1) (main_v16 : IVec S2000000x8 1) : IVec S_ 1 :=
  let main_c_5 : IVec S_ 1 := constantI S_ 1 1#1
  let main_v17 : IVec S_ 1 := (fun x v => Host.reduce IntOp.andi x v reducesTo_S2000000x8_S_d0_1 h_S_) main_v16 main_c_5
  let main_v18 : IVec S_ 1 := andi main_v13 main_v17
  let main_v19 : FVec F S2000000 .f32 := Host.absf main_arg4
  let main_cst_6 : FVec F S_ .f32 := constant S_ .f32 0x7F800000#32
  let main_v20 : FVec F S2000000 .f32 := broadcastInDim S2000000 ![] bcast_S_S2000000 main_cst_6
  let main_v21 : IVec S2000000 1 := cmpf .olt main_v19 main_v20
  let main_c_7 : IVec S_ 1 := constantI S_ 1 1#1
  let main_v22 : IVec S_ 1 := (fun x v => Host.reduce IntOp.andi x v reducesTo_S2000000_S_d0 h_S_) main_v21 main_c_7
  let main_v23 : IVec S_ 1 := andi main_v18 main_v22
  let main_v24 : FVec F S2000000x8 .f32 := Host.absf main_arg6
  let main_cst_8 : FVec F S_ .f32 := constant S_ .f32 0x7F800000#32
  let main_v25 : FVec F S2000000x8 .f32 := broadcastInDim S2000000x8 ![] bcast_S_S2000000x8 main_cst_8
  let main_v26 : IVec S2000000x8 1 := cmpf .olt main_v24 main_v25
  let main_c_9 : IVec S_ 1 := constantI S_ 1 1#1
  let main_v27 : IVec S_ 1 := (fun x v => Host.reduce IntOp.andi x v reducesTo_S2000000x8_S_d0_1 h_S_) main_v26 main_c_9
  let main_v28 : IVec S_ 1 := andi main_v23 main_v27
  main_v28

def fn {F : FTy → Type} [FloatOps F] (main_arg0 : FVec F S2000000 .f32) (main_arg1 : FVec F S2000000 .f32) (main_arg2 : FVec F S2000000x8 .f32) (main_arg3 : FVec F S2000000x8 .f32) (main_arg4 : FVec F S2000000 .f32) (main_arg5 : IVec S2000000 32) (main_arg6 : FVec F S2000000x8 .f32) (main_arg7 : IVec S2000000 32) : IVec S_ 1 :=
  let main_v0 : FVec F S2000000 .f32 := Host.absf main_arg0
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S2000000x8 .f32 := Host.absf main_arg2
  let main_cst_2 : FVec F S_ .f32 := constant S_ .f32 0x7F800000#32
  let main_v10 : FVec F S2000000x8 .f32 := broadcastInDim S2000000x8 ![] bcast_S_S2000000x8 main_cst_2
  let main_v11 : IVec S2000000x8 1 := cmpf .olt main_v9 main_v10
  let main_c_3 : IVec S_ 1 := constantI S_ 1 1#1
  let main_v12 : IVec S_ 1 := (fun x v => Host.reduce IntOp.andi x v reducesTo_S2000000x8_S_d0_1 h_S_) main_v11 main_c_3
  let main_v13 : IVec S_ 1 := andi main_v8 main_v12
  let main_v14 : FVec F S2000000x8 .f32 := Host.absf main_arg3
  let main_cst_4 : FVec F S_ .f32 := constant S_ .f32 0x7F800000#32
  let main_v15 : FVec F S2000000x8 .f32 := broadcastInDim S2000000x8 ![] bcast_S_S2000000x8 main_cst_4
  let main_v16 : IVec S2000000x8 1 := cmpf .olt main_v14 main_v15
  fn_part1 (F := F) main_arg4 main_arg6 main_v13 main_v16
-- ==== Kernel.lean ====
abbrev S2000000 : Shape := ⟨1, ![2000000]⟩
abbrev S2000000x8 : Shape := ⟨2, ![2000000, 8]⟩
abbrev S_ : Shape := ⟨0, ![]⟩
abbrev S2015232x8 : Shape := ⟨2, ![2015232, 8]⟩
abbrev S2015232 : Shape := ⟨1, ![2015232]⟩
abbrev S15744x128x8 : Shape := ⟨3, ![15744, 128, 8]⟩
abbrev S15744x128 : Shape := ⟨2, ![15744, 128]⟩
abbrev S128x128x8 : Shape := ⟨3, ![128, 128, 8]⟩
abbrev S128x128 : Shape := ⟨2, ![128, 128]⟩
abbrev S50000 : Shape := ⟨1, ![50000]⟩
abbrev S2000000x1 : Shape := ⟨2, ![2000000, 1]⟩

abbrev nBuf : Space → Nat
  | .hbm => 58
  | .vmem => 12
  | .smem => 0
  | _ => 0

abbrev bufTy : (tb : Table) → Fin (tcTables nBuf tb) → BufTy
  | .hbm, ⟨0, _⟩ => ⟨S2000000, .f32⟩
  | .hbm, ⟨1, _⟩ => ⟨S2000000, .f32⟩
  | .hbm, ⟨2, _⟩ => ⟨S2000000x8, .f32⟩
  | .hbm, ⟨3, _⟩ => ⟨S2000000x8, .f32⟩
  | .hbm, ⟨4, _⟩ => ⟨S2000000, .f32⟩
  | .hbm, ⟨5, _⟩ => ⟨S2000000, .i32⟩
  | .hbm, ⟨6, _⟩ => ⟨S2000000x8, .f32⟩
  | .hbm, ⟨7, _⟩ => ⟨S2000000, .i32⟩
  | .hbm, ⟨8, _⟩ => ⟨S_, .i32⟩
  | .hbm, ⟨9, _⟩ => ⟨S_, .f32⟩
  | .hbm, ⟨10, _⟩ => ⟨S2015232x8, .f32⟩
  | .hbm, ⟨11, _⟩ => ⟨S_, .i32⟩
  | .hbm, ⟨12, _⟩ => ⟨S_, .f32⟩
  | .hbm, ⟨13, _⟩ => ⟨S2015232x8, .f32⟩
  | .hbm, ⟨14, _⟩ => ⟨S_, .i32⟩
  | .hbm, ⟨15, _⟩ => ⟨S_, .i32⟩
  | .hbm, ⟨16, _⟩ => ⟨S2015232, .i32⟩
  | .hbm, ⟨17, _⟩ => ⟨S_, .i32⟩
  | .hbm, ⟨18, _⟩ => ⟨S_, .i32⟩
  | .hbm, ⟨19, _⟩ => ⟨S2015232, .i32⟩
  | .hbm, ⟨20, _⟩ => ⟨S15744x128x8, .f32⟩
  | .hbm, ⟨21, _⟩ => ⟨S15744x128x8, .f32⟩
  | .hbm, ⟨22, _⟩ => ⟨S15744x128, .i32⟩
  | .hbm, ⟨23, _⟩ => ⟨S15744x128, .i32⟩
  | .hbm, ⟨24, _⟩ => ⟨S15744x128, .f32⟩
  | .hbm, ⟨25, _⟩ => ⟨S15744x128, .f32⟩
  | .hbm, ⟨26, _⟩ => ⟨S2015232, .f32⟩
  | .hbm, ⟨27, _⟩ => ⟨S2000000, .f32⟩
  | .hbm, ⟨28, _⟩ => ⟨S2015232, .f32⟩
  | .hbm, ⟨29, _⟩ => ⟨S2000000, .f32⟩
  | .hbm, ⟨30, _⟩ => ⟨S_, .f32⟩
  | .hbm, ⟨31, _⟩ => ⟨S50000, .f32⟩
  | .hbm, ⟨32, _⟩ => ⟨S2000000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S2000000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .i1⟩
  | .hbm, ⟨41, _⟩ => ⟨S_, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000, .f32⟩
  | .hbm, ⟨46, _⟩ => ⟨S_, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S128x128x8, .f32⟩
  | .local _ .vmem, ⟨1, _⟩ => ⟨S128x128x8, .f32⟩
  | .local _ .vmem, ⟨2, _⟩ => ⟨S128x128x8, .f32⟩
  | .local _ .vmem, ⟨3, _⟩ => ⟨S128x128x8, .f32⟩
  | .local _ .vmem, ⟨4, _⟩ => ⟨S128x128, .i32⟩
  | .local _ .vmem, ⟨5, _⟩ => ⟨S128x128, .i32⟩
  | .local _ .vmem, ⟨6, _⟩ => ⟨S128x128, .i32⟩
  | .local _ .vmem, ⟨7, _⟩ => ⟨S128x128, .i32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | _, _ => ⟨S2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_c_2 : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_call4_v0 : Ref sig .tc := ⟨.hbm, 42, rfl⟩
abbrev main_call4_v1 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_call5_v0 : Ref sig .tc := ⟨.hbm, 47, rfl⟩
abbrev main_call5_v1 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_cst_8 : Ref sig .tc := ⟨.hbm, 53, rfl⟩
abbrev main_v26 : Ref sig .tc := ⟨.hbm, 54, rfl⟩
abbrev main_cst_9 : Ref sig .tc := ⟨.hbm, 55, rfl⟩
abbrev main_v27 : Ref sig .tc := ⟨.hbm, 56, rfl⟩
abbrev main_v28 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![123], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S2000000x8_S2015232x8_0152320_000 : S2000000x8.Pads (![0, 0] : Fin 2 → Nat) ![15232, 0] ![0, 0] S2015232x8
  h_S_ : 0 < S_.numel
  pads_S2000000_S2015232_0152320 : S2000000.Pads (![0] : Fin 1 → Nat) ![15232] ![0] S2015232
  shapeCasts_S2015232x8_S15744x128x8 : S2015232x8.ShapeCasts S15744x128x8
  shapeCasts_S2015232_S15744x128 : S2015232.ShapeCasts S15744x128
  inb_S128x128x8_S128x128x8_0_0_0 : ∀ a, (![0, 0, 0] : Fin 3 → Nat) a + S128x128x8.size a ≤ S128x128x8.size a
  h_S128x128x8 : 0 < S128x128x8.numel
  shapeCasts_S128x128x8_S128x128x8 : S128x128x8.ShapeCasts S128x128x8
  reduces_S128x128x8_S128x128 : S128x128x8.Reduces [2] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  natLt_1_32 : 1 < 32
  shapeCasts_S15744x128_S2015232 : S15744x128.ShapeCasts S2015232
  slices_S2015232_S2000000_0 : S2015232.Slices ![0] S2000000
  bcast_S_S50000 : S_.BroadcastsInDim S50000 (![] : Fin 0 → Fin S50000.rank)
  bcast_S2000000_S2000000x1_0 : S2000000.BroadcastsInDim S2000000x1 (![0] : Fin 1 → Fin S2000000x1.rank)
  reducesTo_S50000_S_d0 : S50000.ReducesTo [0] S_
  scatter_S50000_S2000000x1_S2000000_n_0_0_1_wf : ScatterDims.WF S50000 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x8.size a ≤ S15744x128x8.size a
  hwx0_0 : ∀ i : grid0.Coords, EltTy.bits .f32 = 32 ∨ (Rect.block (s := S15744x128x8) S128x128x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x8.size a ≤ S15744x128x8.size a
  hwx0_1 : ∀ i : grid0.Coords, EltTy.bits .f32 = 32 ∨ (Rect.block (s := S15744x128x8) S128x128x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S15744x128.size a
  hwx0_2 : ∀ i : grid0.Coords, EltTy.bits .i32 = 32 ∨ (Rect.block (s := S15744x128) S128x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S15744x128.size a
  hwx0_3 : ∀ i : grid0.Coords, EltTy.bits .i32 = 32 ∨ (Rect.block (s := S15744x128) S128x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S15744x128.size a
  hwx0_4 : ∀ i : grid0.Coords, EltTy.bits .f32 = 32 ∨ (Rect.block (s := S15744x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S15744x128.size a
  hwx0_5 : ∀ i : grid0.Coords, EltTy.bits .f32 = 32 ∨ (Rect.block (s := S15744x128) S128x128.size (cc0_transform_5 i) (hinb0_5 i)).WholeWords (EltTy.packing .f32)

variable [Facts₀]

def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf

abbrev win0_0 : Pipeline.Window sig grid0 :=
  Pipeline.Window.ofSpec (Memref.whole main_v4) S128x128x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S128x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000 : Shape := ⟨1, ![2000000]⟩
abbrev S2000000x8 : Shape := ⟨2, ![2000000, 8]⟩
abbrev S_ : Shape := ⟨0, ![]⟩
abbrev S50000 : Shape := ⟨1, ![50000]⟩
abbrev S2000000x1 : Shape := ⟨2, ![2000000, 1]⟩

abbrev nBuf : Space → Nat
  | .hbm => 49
  | .vmem => 0
  | .smem => 0
  | _ => 0

abbrev bufTy : (tb : Table) → Fin (tcTables nBuf tb) → BufTy
  | .hbm, ⟨0, _⟩ => ⟨S2000000, .f32⟩
  | .hbm, ⟨1, _⟩ => ⟨S2000000, .f32⟩
  | .hbm, ⟨2, _⟩ => ⟨S2000000x8, .f32⟩
  | .hbm, ⟨3, _⟩ => ⟨S2000000x8, .f32⟩
  | .hbm, ⟨4, _⟩ => ⟨S2000000, .f32⟩
  | .hbm, ⟨5, _⟩ => ⟨S2000000, .i32⟩
  | .hbm, ⟨6, _⟩ => ⟨S2000000x8, .f32⟩
  | .hbm, ⟨7, _⟩ => ⟨S2000000, .i32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S2000000, .i1⟩
  | .hbm, ⟨15, _⟩ => ⟨S2000000x8, .f32⟩
  | .hbm, ⟨16, _⟩ => ⟨S2000000x8, .f32⟩
  | .hbm, ⟨17, _⟩ => ⟨S_, .f32⟩
  | .hbm, ⟨18, _⟩ => ⟨S2000000, .f32⟩
  | .hbm, ⟨19, _⟩ => ⟨S2000000, .f32⟩
  | .hbm, ⟨20, _⟩ => ⟨S2000000, .f32⟩
  | .hbm, ⟨21, _⟩ => ⟨S_, .f32⟩
  | .hbm, ⟨22, _⟩ => ⟨S50000, .f32⟩
  | .hbm, ⟨23, _⟩ => ⟨S2000000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S2000000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_cst_8 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  reducesTo_S2000000x8_S2000000_d1 : S2000000x8.ReducesTo [1] S2000000
  h_S_ : 0 < S_.numel
  bcast_S_S50000 : S_.BroadcastsInDim S50000 (![] : Fin 0 → Fin S50000.rank)
  bcast_S2000000_S2000000x1_0 : S2000000.BroadcastsInDim S2000000x1 (![0] : Fin 1 → Fin S2000000x1.rank)
  reducesTo_S50000_S_d0 : S50000.ReducesTo [0] S_
  scatter_S50000_S2000000x1_S2000000_n_0_0_1_wf : ScatterDims.WF S50000 S2000000x1 S2000000 [] [0] [0] 1

variable [Facts₀]

def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf

class Facts : Prop extends Facts₀ where

variable [Facts]
-- ==== Proof.GroupLoss.lean ====
/-
  The loss both programs compute, as functions of arrays, with no program in sight.

  Every row `i` (of 2,000,000) carries a weight `w i ∈ {0, 1}` — one exactly when the row is marked
  reconstructable and its particle id is not the noise id `0` — and a squared error, the sum over the row's eight
  columns of `(pred − truth)²`. The rows are binned by particle id into 50,000 groups: `perGroup u p` is the
  group-wise sum of a per-row quantity `u` (a row whose id is out of range lands in no group). A group is
  present when its summed weight is positive; its mean error is its summed weighted error over its summed weight,
  and the loss is `100 · (sum of the present groups' means) / (number of present groups)`: `groupLoss a w p` for
  weighted errors `a`, weights `w` and ids `p`.
-/
import Idealize.ShloMosaic.PureOps.Ideal
import Idealize.ShloMosaic.PureOps.Ideal.Laws
import Idealize.ShloMosaic.Lib.ValueIdx

noncomputable section

namespace Cert.GroupLoss

open Idealize.ShloMosaic

/-- One entry per row. -/
abbrev Rows : Shape := ⟨1, ![2000000]⟩
/-- The rows' ids as a column of one-entry index vectors. -/
abbrev RowsCol : Shape := ⟨2, ![2000000, 1]⟩
/-- One entry per group. -/
abbrev Groups : Shape := ⟨1, ![50000]⟩
/-- A single number. -/
abbrev One : Shape := ⟨0, ![]⟩

theorem one_pos : 0 < One.numel := by decide
theorem one_to_groups : One.BroadcastsInDim Groups (![] : Fin 0 → Fin Groups.rank) := by decide
theorem rows_to_col : Rows.BroadcastsInDim RowsCol (![0] : Fin 1 → Fin RowsCol.rank) := by decide
theorem groups_to_one : Groups.ReducesTo [0] One := by decide

/-- Binning by the one index each row carries: row `i`'s quantity is added into group `p i`. -/
def byGroup : ScatterDims Groups RowsCol Rows where
  updateWindowDims := []
  insertedWindowDims := [0]
  scatterDimsToOperandDims := [0]
  indexVectorDim := 1
  wf := by decide

variable {F : FTy → Type} [FloatOps F]

/-- The same number in every group. -/
def groupsOf (b : BitVec 32) : FVec F Groups .f32 :=
  broadcastInDim Groups ![] one_to_groups (constant (F := F) One .f32 b)

/-- The group-wise sums of a per-row quantity. -/
def perGroup (u : FVec F Rows .f32) (p : IVec Rows 32) : FVec F Groups .f32 :=
  Host.scatterAdd (F := F) byGroup (groupsOf (F := F) 0x00000000#32) (broadcastInDim RowsCol ![0] rows_to_col p) u

/-- The groups whose summed weight is positive. -/
def present (w : FVec F Rows .f32) (p : IVec Rows 32) : IVec Groups 1 :=
  cmpf (F := F) .ogt (perGroup w p) (groupsOf (F := F) 0x00000000#32)

/-- The loss: a hundred times the mean, over the present groups, of each group's mean weighted error. -/
def groupLoss (a w : FVec F Rows .f32) (p : IVec Rows 32) : FVec F One .f32 :=
  Host.divf (F := F)
    (mulf (F := F) (constant (F := F) One .f32 0x42C80000#32)
      (Host.reduceAdd (F := F)
        (select (present w p)
          (Host.divf (F := F) (perGroup a p) (select (present w p) (perGroup w p) (groupsOf (F := F) 0x3F800000#32)))
          (groupsOf (F := F) 0x00000000#32))
        (constant (F := F) One .f32 0x00000000#32) groups_to_one one_pos))
    (Host.reduceAdd (F := F) (uitofp (F := F) .f32 (present w p)) (constant (F := F) One .f32 0x00000000#32) groups_to_one one_pos)

end Cert.GroupLoss

end
-- ==== Proof.RefRun.lean ====
/-
  The reference program's run, read back.

  The reference is a straight line of 41 host operations. Run from any memory, every weakly fair execution ends with
  each buffer at the fold of the operations' results, so its one result is a closed term of the argument arrays.
  That term is the loss of Proof/GroupLoss.lean at the reference's own per-row quantities: the weight
  `rowWeight recon pid` (one exactly where `recon > 0` and `pid ≠ 0`, as a float) and the squared error
  `rowError pred truth` (zero plus the sum over the row's eight columns of `(pred − truth)²`); the weighted error is
  their product.
-/
import proofs.«137671_j82386062672211_2_alg».proof.Proof.Gen.ReferenceIdeal
import proofs.«137671_j82386062672211_2_alg».proof.Proof.GroupLoss
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order; a called function's operations stand where it is called. -/
abbrev ops : List (HloOp τ sig (Elt F)) :=
  [ nullary main_c (constantI S_ 32 0#32),
    unary main_c main_v0 (broadcastInDim S2000000 ![] bcast_S_S2000000 : (⟨S_, .i32⟩ : BufTy).Contents (Elt F) → (⟨S2000000, .i32⟩ : BufTy).Contents (Elt F)),
    binary main_arg7 main_v0 main_v1 (cmpi .sgt : (⟨S2000000, .i32⟩ : BufTy).Contents (Elt F) → (⟨S2000000, .i32⟩ : BufTy).Contents (Elt F) → (⟨S2000000, .i1⟩ : BufTy).Contents (Elt F)),
    nullary main_c_0 (constantI S_ 32 0#32),
    unary main_c_0 main_v2 (broadcastInDim S2000000 ![] bcast_S_S2000000 : (⟨S_, .i32⟩ : BufTy).Contents (Elt F) → (⟨S2000000, .i32⟩ : BufTy).Contents (Elt F)),
    binary main_arg5 main_v2 main_v3 (cmpi .ne : (⟨S2000000, .i32⟩ : BufTy).Contents (Elt F) → (⟨S2000000, .i32⟩ : BufTy).Contents (Elt F) → (⟨S2000000, .i1⟩ : BufTy).Contents (Elt F)),
    binary main_v1 main_v3 main_v4 (andi : (⟨S2000000, .i1⟩ : BufTy).Contents (Elt F) → (⟨S2000000, .i1⟩ : BufTy).Contents (Elt F) → (⟨S2000000, .i1⟩ : BufTy).Contents (Elt F)),
    binary main_arg3 main_arg6 main_v5 (subf : (⟨S2000000x8, .f32⟩ : BufTy).Contents (Elt F) → (⟨S2000000x8, .f32⟩ : BufTy).Contents (Elt F) → (⟨S2000000x8, .f32⟩ : BufTy).Contents (Elt F)),
    binary main_v5 main_v5 main_v6 (mulf : (⟨S2000000x8, .f32⟩ : BufTy).Contents (Elt F) → (⟨S2000000x8, .f32⟩ : BufTy).Contents (Elt F) → (⟨S2000000x8, .f32⟩ : BufTy).Contents (Elt F)),
    nullary main_cst (constant S_ .f32 0x00000000#32),
    binary main_v6 main_cst main_v7 ((fun x v => Host.reduceAdd x v reducesTo_S2000000x8_S2000000_d1 h_S_) : (⟨S2000000x8, .f32⟩ : BufTy).Contents (Elt F) → (⟨S_, .f32⟩ : BufTy).Contents (Elt F) → (⟨S2000000, .f32⟩ : BufTy).Contents (Elt F)),
    unary main_v4 main_v8 (uitofp .f32 : (⟨S2000000, .i1⟩ : BufTy).Contents (Elt F) → (⟨S2000000, .f32⟩ : BufTy).Contents (Elt F)),
    binary main_v7 main_v8 main_v9 (mulf : (⟨S2000000, .f32⟩ : BufTy).Contents (Elt F) → (⟨S2000000, .f32⟩ : BufTy).Contents (Elt F) → (⟨S2000000, .f32⟩ : BufTy).Contents (Elt F)),
    nullary main_cst_1 (constant S_ .f32 0x00000000#32),
    unary main_cst_1 main_v10 (broadcastInDim S50000 ![] bcast_S_S50000 : (⟨S_, .f32⟩ : BufTy).Contents (Elt F) → (⟨S50000, .f32⟩ : BufTy).Contents (Elt F)),
    unary main_arg5 main_v11 (broadcastInDim S2000000x1 ![0] bcast_S2000000_S2000000x1_0 : (⟨S2000000, .i32⟩ : BufTy).Contents (Elt F) → (⟨S2000000x1, .i32⟩ : BufTy).Contents (Elt F)),
    ternary main_v10 main_v11 main_v9 main_v12 ((fun x i u => Host.scatterAdd scatter_S50000_S2000000x1_S2000000_n_0_0_1 x i u) : (⟨S50000, .f32⟩ : BufTy).Contents (Elt F) → (⟨S2000000x1, .i32⟩ : BufTy).Contents (Elt F) → (⟨S2000000, .f32⟩ : BufTy).Contents (Elt F) → (⟨S50000, .f32⟩ : BufTy).Contents (Elt F)),
    nullary main_cst_2 (constant S_ .f32 0x00000000#32),
    unary main_cst_2 main_v13 (broadcastInDim S50000 ![] bcast_S_S50000 : (⟨S_, .f32⟩ : BufTy).Contents (Elt F) → (⟨S50000, .f32⟩ : BufTy).Contents (Elt F)),
    unary main_arg5 main_v14 (broadcastInDim S2000000x1 ![0] bcast_S2000000_S2000000x1_0 : (⟨S2000000, .i32⟩ : BufTy).Contents (Elt F) → (⟨S2000000x1, .i32⟩ : BufTy).Contents (Elt F)),
    ternary main_v13 main_v14 main_v8 main_v15 ((fun x i u => Host.scatterAdd scatter_S50000_S2000000x1_S2000000_n_0_0_1 x i u) : (⟨S50000, .f32⟩ : BufTy).Contents (Elt F) → (⟨S2000000x1, .i32⟩ : BufTy).Contents (Elt F) → (⟨S2000000, .f32⟩ : BufTy).Contents (Elt F) → (⟨S50000, .f32⟩ : BufTy).Contents (Elt F)),
    nullary main_cst_3 (constant S_ .f32 0x00000000#32),
    unary main_cst_3 main_v16 (broadcastInDim S50000 ![] bcast_S_S50000 : (⟨S_, .f32⟩ : BufTy).Contents (Elt F) → (⟨S50000, .f32⟩ : BufTy).Contents (Elt F)),
    binary main_v15 main_v16 main_v17 (cmpf .ogt : (⟨S50000, .f32⟩ : BufTy).Contents (Elt F) → (⟨S50000, .f32⟩ : BufTy).Contents (Elt F) → (⟨S50000, .i1⟩ : BufTy).Contents (Elt F)),
    nullary main_cst_4 (constant S_ .f32 0x3F800000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v17) (TRef.of (T := ⟨S50000, .f32⟩) main_v15) (TRef.of (T := ⟨S50000, .f32⟩) main_call0_v1) (TRef.of (T := ⟨S50000, .f32⟩) main_v18) select,
    binary main_v12 main_v18 main_v19 (Host.divf : (⟨S50000, .f32⟩ : BufTy).Contents (Elt F) → (⟨S50000, .f32⟩ : BufTy).Contents (Elt F) → (⟨S50000, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v17) (TRef.of (T := ⟨S50000, .f32⟩) main_v19) (TRef.of (T := ⟨S50000, .f32⟩) main_call1_v1) (TRef.of (T := ⟨S50000, .f32⟩) main_v20) select,
    unary main_v17 main_v21 (uitofp .f32 : (⟨S50000, .i1⟩ : BufTy).Contents (Elt F) → (⟨S50000, .f32⟩ : BufTy).Contents (Elt F)),
    nullary main_cst_6 (constant S_ .f32 0x00000000#32),
    binary main_v21 main_cst_6 main_v22 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_7 (constant S_ .f32 0x00000000#32),
    binary main_v20 main_cst_7 main_v23 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_8 (constant S_ .f32 0x42C80000#32),
    binary main_cst_8 main_v23 main_v24 (mulf : (⟨S_, .f32⟩ : BufTy).Contents (Elt F) → (⟨S_, .f32⟩ : BufTy).Contents (Elt F) → (⟨S_, .f32⟩ : BufTy).Contents (Elt F)),
    binary main_v24 main_v22 main_v25 (Host.divf : (⟨S_, .f32⟩ : BufTy).Contents (Elt F) → (⟨S_, .f32⟩ : BufTy).Contents (Elt F) → (⟨S_, .f32⟩ : BufTy).Contents (Elt F)) ]

set_option maxRecDepth 8192 in
/-- The printed program is that line of operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
   binary_bufs_sub .., binary_bufs_sub .., binary_bufs_sub .., nullary_bufs_sub .., binary_bufs_sub .., unary_bufs_sub ..,
   binary_bufs_sub .., nullary_bufs_sub .., unary_bufs_sub .., unary_bufs_sub .., ternary_bufs_sub .., nullary_bufs_sub ..,
   unary_bufs_sub .., unary_bufs_sub .., ternary_bufs_sub .., nullary_bufs_sub .., unary_bufs_sub .., binary_bufs_sub ..,
   nullary_bufs_sub .., unary_bufs_sub .., unary_bufs_sub .., ternary_bufs_sub .., binary_bufs_sub .., nullary_bufs_sub ..,
   unary_bufs_sub .., unary_bufs_sub .., ternary_bufs_sub .., unary_bufs_sub .., nullary_bufs_sub .., binary_bufs_sub ..,
   nullary_bufs_sub .., binary_bufs_sub .., nullary_bufs_sub .., binary_bufs_sub .., binary_bufs_sub ..⟩

/-- A row's weight as the reference computes it: the conjunction of `recon > 0` (signed) and `pid ≠ 0`, one bit,
    read as a float. -/
def rowWeight (recon pid : (⟨S2000000, .i32⟩ : BufTy).Contents (Elt F)) : (⟨S2000000, .f32⟩ : BufTy).Contents (Elt F) :=
  uitofp (F := F) .f32
    (andi (cmpi .sgt recon (broadcastInDim S2000000 ![] bcast_S_S2000000 (constantI S_ 32 0#32)))
      (cmpi .ne pid (broadcastInDim S2000000 ![] bcast_S_S2000000 (constantI S_ 32 0#32))))

/-- A row's squared error as the reference computes it: the host's sum, from zero, over the row's eight columns of
    the squared difference. -/
def rowError (pred truth : (⟨S2000000x8, .f32⟩ : BufTy).Contents (Elt F)) : (⟨S2000000, .f32⟩ : BufTy).Contents (Elt F) :=
  Host.reduceAdd (F := F) (mulf (F := F) (subf (F := F) pred truth) (subf (F := F) pred truth))
    (constant (F := F) S_ .f32 0x00000000#32) reducesTo_S2000000x8_S2000000_d1 h_S_

set_option maxRecDepth 8192 in
set_option maxHeartbeats 2000000 in
/-- From any memory with zero counters every weakly fair execution of the reference terminates with its result at the
    loss of its per-row weighted errors and weights binned by particle id, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = Cert.GroupLoss.groupLoss (F := F)
            (mulf (F := F) (rowError (m ((c.tc : Thread nD τ).loc main_arg3)) (m ((c.tc : Thread nD τ).loc main_arg6)))
              (rowWeight (m ((c.tc : Thread nD τ).loc main_arg7)) (m ((c.tc : Thread nD τ).loc main_arg5))))
            (rowWeight (m ((c.tc : Thread nD τ).loc main_arg7)) (m ((c.tc : Thread nD τ).loc main_arg5)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v25).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.KernelHost.lean ====
/-
  The kernel program's host operations, read back on both sides of the region.

  Before the region the program pads each argument with zero rows from 2,000,000 up to 2,015,232 = 123 · 128 · 128
  rows and lays the rows out 128 to a line: `padRows8` for the two [rows, 8] float arrays, `padRowsI` for the two
  integer arrays. These are what the region's four input windows are cut from.

  After the region the program lays each of the region's two outputs flat again and cuts it back to the first
  2,000,000 entries (`flatCut`), then computes the loss of Proof/GroupLoss.lean from the two, binned by the particle
  ids. So the program's result is `groupLoss` of the cut outputs, whatever the region left in them.
-/
import proofs.«137671_j82386062672211_2_alg».proof.Proof.Gen.KernelIdeal.Frame
import proofs.«137671_j82386062672211_2_alg».proof.Proof.GroupLoss
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- A [2,000,000, 8] float array padded with zero rows and laid out as [15744, 128, 8]. -/
def padRows8 (x : FVec F S2000000x8 .f32) : FVec F S15744x128x8 .f32 :=
  shapeCast S15744x128x8
    (pad S2015232x8 ![0, 0] ![15232, 0] ![0, 0] x (sitofp (F := F) .f32 (constantI S_ 32 0#32))
      pads_S2000000x8_S2015232x8_0152320_000 h_S_)
    shapeCasts_S2015232x8_S15744x128x8

/-- A 2,000,000-entry integer array padded with zeros and laid out as [15744, 128]. -/
def padRowsI (x : IVec S2000000 32) : IVec S15744x128 32 :=
  shapeCast S15744x128 (pad S2015232 ![0] ![15232] ![0] x (constantI S_ 32 0#32) pads_S2000000_S2015232_0152320 h_S_)
    shapeCasts_S2015232_S15744x128

/-- A [15744, 128] array laid out flat and cut to its first 2,000,000 entries. -/
def flatCut (x : FVec F S15744x128 .f32) : FVec F Cert.GroupLoss.Rows .f32 :=
  extractStridedSlice S2000000 ![0] (shapeCast S2015232 x shapeCasts_S15744x128_S2015232) slices_S2015232_S2000000_0

section Before

/-- The operations before the region, from any contents: the first window's array is the predictions, padded. -/
theorem before_pred (W : Valuation τ sig (Elt F)) :
    StableHlo.after (List.flatten [hostOps0, hostOps0_1, hostOps0_2, hostOps0_3, hostOps0_4, hostOps0_5, hostOps0_6, hostOps0_7, hostOps0_8]) W (Proc.devRef .tc main_v4)
      = padRows8 (F := F) (W (Proc.devRef .tc main_arg3)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The second window's array is the true track parameters, padded. -/
theorem before_truth (W : Valuation τ sig (Elt F)) :
    StableHlo.after (List.flatten [hostOps0, hostOps0_1, hostOps0_2, hostOps0_3, hostOps0_4, hostOps0_5, hostOps0_6, hostOps0_7, hostOps0_8]) W (Proc.devRef .tc main_v5)
      = padRows8 (F := F) (W (Proc.devRef .tc main_arg6)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The third window's array is the reconstructable marks, padded. -/
theorem before_recon (W : Valuation τ sig (Elt F)) :
    StableHlo.after (List.flatten [hostOps0, hostOps0_1, hostOps0_2, hostOps0_3, hostOps0_4, hostOps0_5, hostOps0_6, hostOps0_7, hostOps0_8]) W (Proc.devRef .tc main_v6)
      = padRowsI (W (Proc.devRef .tc main_arg7)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The fourth window's array is the particle ids, padded. -/
theorem before_pid (W : Valuation τ sig (Elt F)) :
    StableHlo.after (List.flatten [hostOps0, hostOps0_1, hostOps0_2, hostOps0_3, hostOps0_4, hostOps0_5, hostOps0_6, hostOps0_7, hostOps0_8]) W (Proc.devRef .tc main_v7)
      = padRowsI (W (Proc.devRef .tc main_arg5)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

end Before

variable (m : (ℓ : Loc nD τ sig) → Buf (Elt F) ℓ)

/-- What the region finds in its four input arrays. -/
theorem entry_pred (c : Dev nD) : V m c main_v4 = padRows8 (F := F) (m ((c : Thread nD τ).loc main_arg3)) :=
  before_pred (fun b => m (c, b))
theorem entry_truth (c : Dev nD) : V m c main_v5 = padRows8 (F := F) (m ((c : Thread nD τ).loc main_arg6)) :=
  before_truth (fun b => m (c, b))
theorem entry_recon (c : Dev nD) : V m c main_v6 = padRowsI (m ((c : Thread nD τ).loc main_arg7)) :=
  before_recon (fun b => m (c, b))
theorem entry_pid (c : Dev nD) : V m c main_v7 = padRowsI (m ((c : Thread nD τ).loc main_arg5)) :=
  before_pid (fun b => m (c, b))

/-- The operations after the region, from any contents: the result is the loss of the two region outputs, cut, binned by
    the particle ids. -/
theorem after_loss (W : Valuation τ sig (Elt F)) :
    StableHlo.after (List.flatten [hostOps1, hostOps1_1, hostOps1_2, hostOps1_3, hostOps1_4]) W (Proc.devRef .tc main_v28)
      = Cert.GroupLoss.groupLoss (F := F) (flatCut (W (Proc.devRef .tc main_v8_0))) (flatCut (W (Proc.devRef .tc main_v8_1)))
          (W (Proc.devRef .tc main_arg5)) := by
  simp only [hostOps1, hostOps1_1, hostOps1_2, hostOps1_3, hostOps1_4, List.flatten_cons, List.flatten_nil, List.append_nil, List.cons_append, List.nil_append]
  after_results_simp
  rfl

/-- The program's result after the run's tail: the loss of the region's two output arrays as the run leaves them. -/
theorem result_eq (c : Dev nD) :
    Pipeline.afterTail₀ cfgs (dats m) 0 (V0 m) [hostOps1, hostOps1_1, hostOps1_2, hostOps1_3, hostOps1_4] c main_v28
      = Cert.GroupLoss.groupLoss (F := F) (flatCut ((dats m 0 c).arrAt 4 cfg0.N)) (flatCut ((dats m 0 c).arrAt 5 cfg0.N))
          (m ((c : Thread nD τ).loc main_arg5)) := by
  unfold Pipeline.afterTail₀
  refine (after_loss _).trans ?_
  rw [Pipeline.withArrays_arr spec0 launch0.win.arr_inj c _ _ 4, Pipeline.withArrays_arr spec0 launch0.win.arr_inj c _ _ 5,
    Pipeline.withArrays_of_ne _ c (V0 m c) _ main_arg5 (by exact (by decide : ∀ w, Pipeline.arrRef spec0 w ≠ main_arg5))]
  exact congrArg _ (V_main_arg5 m c)

end Cert.KernelIdeal.Host

end
-- ==== Proof.KernelBlocks.lean ====
/-
  What the region leaves in its two output arrays.

  The region runs the kernel body at 123 grid points. At point `t` the body sees lines `128 t … 128 t + 127` of the
  four padded input arrays (128 lines of 128 rows each; for the two float arrays every row has 8 columns) and writes
  the same lines of the two outputs. For the row at line `a`, lane `b` of its block it computes

    the squared error   `sqErr x0 x1 a b = ∑ k < 8, (x0[a,b,k] − x1[a,b,k])²`   (a lane sum from a zero accumulator), and
    the weight          `bitWeight r p`: the bit `r > 0 ∧ p ≠ 0`, widened to a 32-bit word and converted signed,

  and stores `sqErr · weight` in the first output and `weight` in the second. Both are functions of the row alone, so
  what a point writes back is the block, at that point, of ONE array-wide function of the padded inputs (`wmseOf`,
  `weightOf`): a block's element sits at block index × 128 + its line inside the block, and every window's block
  index is the grid point on the line axis and zero on the others. The blocks of the 123 points tile the 15744 lines
  (line `r` belongs to point `r / 128`), so after the run each output array IS that function.
-/
import proofs.«137671_j82386062672211_2_alg».proof.Proof.Gen.KernelIdeal.Frame
import Idealize.ShloMosaic.Lib.Pipeline.Value
import Idealize.ShloMosaic.Lib.ValueIdx
import Idealize.ShloMosaic.PureOps.Ideal.Laws

set_option maxRecDepth 16384
noncomputable section
namespace Cert.KernelIdeal.Blocks
open Cert.KernelIdeal Cert.KernelIdeal.Gen Idealize.ShloMosaic Idealize.ShloMosaic.TcCoe Idealize.SL.Sem Idealize.ShloMosaic.ValueIdx
open scoped BigOperators
open Idealize.ShloMosaic.Pipeline (Dat)

/-- The zero offsets of a rank-2 block. -/
theorem hz2 : (![0, 0] : Fin 2 → Nat) = fun _ => 0 := funext fun a => by fin_cases a <;> rfl
/-- The zero offsets of a rank-3 block. -/
theorem hz3 : (![0, 0, 0] : Fin 3 → Nat) = fun _ => 0 := funext fun a => by fin_cases a <;> rfl

/-- One row's weight from its two integer words. -/
def bitWeight (r p : BitVec 32) : EReal :=
  FloatOps.sitofp (F := Ideal) .f32 ((IntOp.andi (IntOp.cmpi .sgt r 0#32) (IntOp.cmpi .ne p 0#32)).setWidth 32)

/-- One row's squared error. -/
def sqErr {n : Nat} (P T : FVec Ideal ⟨3, ![n, 128, 8]⟩ .f32) (r : Fin n) (l : Fin 128) : EReal :=
  ∑ k : Fin 8, (P (ix3 r l k) - T (ix3 r l k)) * (P (ix3 r l k) - T (ix3 r l k))

/-- The weight payload at an entry. -/
theorem pay1_apply (x2 x3 : Vec Ideal S128x128 .i32) (a b : Fin 128) :
    k0_pay1 (F := Ideal) x2 x3 (ix2 a b) = bitWeight (x2 (ix2 a b)) (x3 (ix2 a b)) := by
  unfold k0_pay1
  simp only [shapeCast_self]
  rfl

/-- The second output's buffer after the body, at an entry: the row's weight. -/
theorem weight_apply (x0 x1 : Vec Ideal S128x128x8 .f32) (x2 x3 : Vec Ideal S128x128 .i32) (a b : Fin 128) :
    out0_5 (F := Ideal) x0 x1 x2 x3 (ix2 a b) = bitWeight (x2 (ix2 a b)) (x3 (ix2 a b)) := by
  unfold out0_5
  rw [View.canon_unit_zero hz2]
  simp only [View.ld_unit_zero (S := S128x128) hz2]
  exact pay1_apply x2 x3 a b

/-- The first output's buffer after the body, at an entry: the lane sum over the row's eight columns is the row's
    squared error, times the row's weight. -/
theorem wmse_apply (x0 x1 : Vec Ideal S128x128x8 .f32) (x2 x3 : Vec Ideal S128x128 .i32) (a b : Fin 128) :
    out0_4 (F := Ideal) x0 x1 x2 x3 (ix2 a b) = sqErr x0 x1 a b * bitWeight (x2 (ix2 a b)) (x3 (ix2 a b)) := by
  unfold out0_4
  rw [View.canon_unit_zero hz2]
  simp only [View.ld_unit_zero (S := S128x128) hz2, View.ld_unit_zero (S := S128x128x8) hz3]
  unfold k0_pay2
  simp only [shapeCast_self]
  rw [mulf_apply, pay1_apply]
  refine congrArg (· * bitWeight (x2 (ix2 a b)) (x3 (ix2 a b))) ?_
  refine (Ideal.multiReduction_add_single _ _ _ _ _ (ix2 a b)).trans ?_
  unfold sqErr
  refine Finset.sum_congr rfl fun k _ => ?_
  have e : reduces_S128x128x8_S128x128.lift (ix2 a b) k = ix3 a b k :=
    funext fun d => Fin.ext (by match d with | ⟨0, _⟩ => rfl | ⟨1, _⟩ => rfl | ⟨2, _⟩ => rfl)
  rw [e]
  rfl

/-- The weighted squared error of every row of the padded arrays. -/
def wmseOf (P T : FVec Ideal S15744x128x8 .f32) (R Q : IVec S15744x128 32) : FVec Ideal S15744x128 .f32 :=
  fun i => sqErr P T ⟨(i 0).val, idx2_lt0 i⟩ ⟨(i 1).val, idx2_lt1 i⟩ * bitWeight (R i) (Q i)

/-- The weight of every row of the padded arrays. -/
def weightOf (R Q : IVec S15744x128 32) : FVec Ideal S15744x128 .f32 := fun i => bitWeight (R i) (Q i)

/-- An index of a 128 × 128 block from its two coordinates. -/
theorem split2 (y : S128x128.Idx) : y = ix2 (⟨(y 0).val, idx2_lt0 y⟩ : Fin 128) (⟨(y 1).val, idx2_lt1 y⟩ : Fin 128) :=
  funext fun d => by match d with | ⟨0, _⟩ => rfl | ⟨1, _⟩ => rfl

/-- A block of the weight output is the block of \`weightOf\` wherever the body's integer blocks are blocks of \`R\`, \`Q\`. -/
theorem block_weight (R Q : IVec S15744x128 32) (x0 x1 : Vec Ideal S128x128x8 .f32) (x2 x3 : Vec Ideal S128x128 .i32)
    (y : S128x128.Idx) (i : S15744x128.Idx) (h2 : x2 y = R i) (h3 : x3 y = Q i) :
    out0_5 (F := Ideal) x0 x1 x2 x3 y = weightOf R Q i := by
  refine (congrArg (out0_5 (F := Ideal) x0 x1 x2 x3) (split2 y)).trans ((weight_apply x0 x1 x2 x3 _ _).trans ?_)
  rw [← split2 y, h2, h3]
  rfl

/-- A block of the weighted-error output is the block of \`wmseOf\` wherever the body's four input blocks are blocks of
    \`P\`, \`T\`, \`R\`, \`Q\` at the same line and lane. -/
theorem block_wmse (P T : FVec Ideal S15744x128x8 .f32) (R Q : IVec S15744x128 32)
    (x0 x1 : Vec Ideal S128x128x8 .f32) (x2 x3 : Vec Ideal S128x128 .i32) (y : S128x128.Idx) (i : S15744x128.Idx)
    (h0 : ∀ k : Fin 8, x0 (ix3 (⟨(y 0).val, idx2_lt0 y⟩ : Fin 128) (⟨(y 1).val, idx2_lt1 y⟩ : Fin 128) k)
      = P (ix3 (⟨(i 0).val, idx2_lt0 i⟩ : Fin 15744) (⟨(i 1).val, idx2_lt1 i⟩ : Fin 128) k))
    (h1 : ∀ k : Fin 8, x1 (ix3 (⟨(y 0).val, idx2_lt0 y⟩ : Fin 128) (⟨(y 1).val, idx2_lt1 y⟩ : Fin 128) k)
      = T (ix3 (⟨(i 0).val, idx2_lt0 i⟩ : Fin 15744) (⟨(i 1).val, idx2_lt1 i⟩ : Fin 128) k))
    (h2 : x2 y = R i) (h3 : x3 y = Q i) :
    out0_4 (F := Ideal) x0 x1 x2 x3 y = wmseOf P T R Q i := by
  refine (congrArg (out0_4 (F := Ideal) x0 x1 x2 x3) (split2 y)).trans ((wmse_apply x0 x1 x2 x3 _ _).trans ?_)
  rw [← split2 y, h2, h3]
  unfold wmseOf sqErr
  refine congrArg (· * bitWeight (R i) (Q i)) (Finset.sum_congr rfl fun k _ => ?_)
  rw [h0 k, h1 k]

variable (m : (ℓ : Loc nD τ sig) → Buf (Elt Ideal) ℓ)

/-- The printed index maps over the grid: every window's block index is the grid point on the row axis, zero elsewhere. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point \`t\` writes back to the first output is block \`t\` of \`wmseOf\` of the arrays the region finds. -/
theorem flushed4_eq (c : Dev nD) (t : Fin cfg0.N) :
    (dats m 0 c).flushed 4 t = ((cfg0.win 4).blk t).view.read (Elt Ideal)
      (wmseOf (V m c main_v4) (V m c main_v5) (V m c main_v6) (V m c main_v7)) := by
  show (cfg0.win 4).cut (grid0.coords t) ((dats m 0 c).after 4 t) = _
  rw [after0_4]
  obtain ⟨a00, a01, a02, a10, a11, a12, a20, a21, a30, a31, a40, a41, a50, a51⟩ := idx_facts t
  funext j
  show out0_4 (F := Ideal) (iblk m c 0 t) (iblk m c 1 t) (iblk m c 2 t) (iblk m c 3 t) j
    = wmseOf (V m c main_v4) (V m c main_v5) (V m c main_v6) (V m c main_v7) (((cfg0.win 4).blk t).view.emb j)
  refine block_wmse (V m c main_v4) (V m c main_v5) (V m c main_v6) (V m c main_v7) (iblk m c 0 t) (iblk m c 1 t) (iblk m c 2 t)
    (iblk m c 3 t) j (((cfg0.win 4).blk t).view.emb j) (fun k => ?_) (fun k => ?_) ?_ ?_
  · show V m c main_v4 (((cfg0.win 0).blk t).view.emb _) = V m c main_v4 _
    refine congrArg (V m c main_v4) (funext fun a => Fin.ext ?_)
    match a with
    | ⟨0, _⟩ => show win0_0.index t 0 * 128 + 1 * (j 0).val = win0_4.index t 0 * 128 + 1 * (j 0).val; rw [a00, a40]
    | ⟨1, _⟩ => show win0_0.index t 1 * 128 + 1 * (j 1).val = win0_4.index t 1 * 128 + 1 * (j 1).val; rw [a01, a41]
    | ⟨2, _⟩ => show win0_0.index t 2 * 8 + 1 * k.val = k.val; rw [a02]; omega
  · show V m c main_v5 (((cfg0.win 1).blk t).view.emb _) = V m c main_v5 _
    refine congrArg (V m c main_v5) (funext fun a => Fin.ext ?_)
    match a with
    | ⟨0, _⟩ => show win0_1.index t 0 * 128 + 1 * (j 0).val = win0_4.index t 0 * 128 + 1 * (j 0).val; rw [a10, a40]
    | ⟨1, _⟩ => show win0_1.index t 1 * 128 + 1 * (j 1).val = win0_4.index t 1 * 128 + 1 * (j 1).val; rw [a11, a41]
    | ⟨2, _⟩ => show win0_1.index t 2 * 8 + 1 * k.val = k.val; rw [a12]; omega
  · show V m c main_v6 (((cfg0.win 2).blk t).view.emb j) = V m c main_v6 (((cfg0.win 4).blk t).view.emb j)
    refine congrArg (V m c main_v6) (funext fun a => Fin.ext ?_)
    match a with
    | ⟨0, _⟩ => show win0_2.index t 0 * 128 + 1 * (j 0).val = win0_4.index t 0 * 128 + 1 * (j 0).val; rw [a20, a40]
    | ⟨1, _⟩ => show win0_2.index t 1 * 128 + 1 * (j 1).val = win0_4.index t 1 * 128 + 1 * (j 1).val; rw [a21, a41]
  · show V m c main_v7 (((cfg0.win 3).blk t).view.emb j) = V m c main_v7 (((cfg0.win 4).blk t).view.emb j)
    refine congrArg (V m c main_v7) (funext fun a => Fin.ext ?_)
    match a with
    | ⟨0, _⟩ => show win0_3.index t 0 * 128 + 1 * (j 0).val = win0_4.index t 0 * 128 + 1 * (j 0).val; rw [a30, a40]
    | ⟨1, _⟩ => show win0_3.index t 1 * 128 + 1 * (j 1).val = win0_4.index t 1 * 128 + 1 * (j 1).val; rw [a31, a41]

/-- What point \`t\` writes back to the second output is block \`t\` of \`weightOf\` of the arrays the region finds. -/
theorem flushed5_eq (c : Dev nD) (t : Fin cfg0.N) :
    (dats m 0 c).flushed 5 t = ((cfg0.win 5).blk t).view.read (Elt Ideal) (weightOf (V m c main_v6) (V m c main_v7)) := by
  show (cfg0.win 5).cut (grid0.coords t) ((dats m 0 c).after 5 t) = _
  rw [after0_5]
  obtain ⟨a00, a01, a02, a10, a11, a12, a20, a21, a30, a31, a40, a41, a50, a51⟩ := idx_facts t
  funext j
  show out0_5 (F := Ideal) (iblk m c 0 t) (iblk m c 1 t) (iblk m c 2 t) (iblk m c 3 t) j
    = weightOf (V m c main_v6) (V m c main_v7) (((cfg0.win 5).blk t).view.emb j)
  refine block_weight (V m c main_v6) (V m c main_v7) (iblk m c 0 t) (iblk m c 1 t) (iblk m c 2 t) (iblk m c 3 t) j
    (((cfg0.win 5).blk t).view.emb j) ?_ ?_
  · show V m c main_v6 (((cfg0.win 2).blk t).view.emb j) = V m c main_v6 (((cfg0.win 5).blk t).view.emb j)
    refine congrArg (V m c main_v6) (funext fun a => Fin.ext ?_)
    match a with
    | ⟨0, _⟩ => show win0_2.index t 0 * 128 + 1 * (j 0).val = win0_5.index t 0 * 128 + 1 * (j 0).val; rw [a20, a50]
    | ⟨1, _⟩ => show win0_2.index t 1 * 128 + 1 * (j 1).val = win0_5.index t 1 * 128 + 1 * (j 1).val; rw [a21, a51]
  · show V m c main_v7 (((cfg0.win 3).blk t).view.emb j) = V m c main_v7 (((cfg0.win 5).blk t).view.emb j)
    refine congrArg (V m c main_v7) (funext fun a => Fin.ext ?_)
    match a with
    | ⟨0, _⟩ => show win0_3.index t 0 * 128 + 1 * (j 0).val = win0_5.index t 0 * 128 + 1 * (j 0).val; rw [a30, a50]
    | ⟨1, _⟩ => show win0_3.index t 1 * 128 + 1 * (j 1).val = win0_5.index t 1 * 128 + 1 * (j 1).val; rw [a31, a51]

/-- An entry of an output array lies in point `t`'s block iff each coordinate is in the block's range on its axis. -/
theorem mem_blk4 (t : Fin cfg0.N) (i : S15744x128.Idx) :
    i ∈ ((cfg0.win 4).blk t).view.set ↔ ∀ a : Fin 2, win0_4.index t a * S128x128.size a ≤ (i a).val ∧ (i a).val < win0_4.index t a * S128x128.size a + S128x128.size a := by
  show i ∈ ((View.whole main_v8_0).slice (win0_4.rect t)).set ↔ _
  rw [View.set_slice_whole, Rect.mem_set_unit]
  exact Iff.rfl

/-- The same for the second output. -/
theorem mem_blk5 (t : Fin cfg0.N) (i : S15744x128.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v8_1).slice (win0_5.rect t)).set ↔ _
  rw [View.set_slice_whole, Rect.mem_set_unit]
  exact Iff.rfl

/-- The point that writes line `r` of an output is `r / 128`: the 123 blocks of 128 lines tile the 15744 lines. -/
def pointOf (i : S15744x128.Idx) : Fin cfg0.N :=
  ⟨(i 0).val / 128, by have h : (i 0).val < 15744 := (i 0).isLt; show (i 0).val / 128 < 123; omega⟩

/-- Every entry of the first output is in the block of its line's point. -/
theorem cover4 (i : S15744x128.Idx) : ∃ t : Fin cfg0.N, (cfg0.win 4).flush t = true ∧ i ∈ ((cfg0.win 4).blk t).view.set := by
  have hi1 : (i 1).val < 128 := (i 1).isLt
  obtain ⟨-, -, -, -, -, -, -, -, -, -, a40, a41, -, -⟩ := idx_facts (pointOf i)
  refine ⟨pointOf i, flush0_4 _, ?_⟩
  rw [mem_blk4]
  intro a
  match a with
  | ⟨0, _⟩ =>
    show win0_4.index (pointOf i) 0 * 128 ≤ (i 0).val ∧ (i 0).val < win0_4.index (pointOf i) 0 * 128 + 128
    rw [a40]; show (i 0).val / 128 * 128 ≤ (i 0).val ∧ (i 0).val < (i 0).val / 128 * 128 + 128; omega
  | ⟨1, _⟩ =>
    show win0_4.index (pointOf i) 1 * 128 ≤ (i 1).val ∧ (i 1).val < win0_4.index (pointOf i) 1 * 128 + 128
    rw [a41]; omega

/-- Every entry of the second output is in the block of its line's point. -/
theorem cover5 (i : S15744x128.Idx) : ∃ t : Fin cfg0.N, (cfg0.win 5).flush t = true ∧ i ∈ ((cfg0.win 5).blk t).view.set := by
  have hi1 : (i 1).val < 128 := (i 1).isLt
  obtain ⟨-, -, -, -, -, -, -, -, -, -, -, -, a50, a51⟩ := idx_facts (pointOf i)
  refine ⟨pointOf i, flush0_5 _, ?_⟩
  rw [mem_blk5]
  intro a
  match a with
  | ⟨0, _⟩ =>
    show win0_5.index (pointOf i) 0 * 128 ≤ (i 0).val ∧ (i 0).val < win0_5.index (pointOf i) 0 * 128 + 128
    rw [a50]; show (i 0).val / 128 * 128 ≤ (i 0).val ∧ (i 0).val < (i 0).val / 128 * 128 + 128; omega
  | ⟨1, _⟩ =>
    show win0_5.index (pointOf i) 1 * 128 ≤ (i 1).val ∧ (i 1).val < win0_5.index (pointOf i) 1 * 128 + 128
    rw [a51]; omega

/-- After the run the first output array holds every row's weighted squared error, the second every row's weight. -/
theorem final4 (c : Dev nD) :
    (dats m 0 c).arrAt 4 cfg0.N = wmseOf (V m c main_v4) (V m c main_v5) (V m c main_v6) (V m c main_v7) :=
  (dats m 0 c).arrAt_eq_of_cover 4 _ (fun t _ => flushed4_eq m c t) cover4
theorem final5 (c : Dev nD) : (dats m 0 c).arrAt 5 cfg0.N = weightOf (V m c main_v6) (V m c main_v7) :=
  (dats m 0 c).arrAt_eq_of_cover 5 _ (fun t _ => flushed5_eq m c t) cover5

end Cert.KernelIdeal.Blocks
end
-- ==== Proof.RowBridge.lean ====
/-
  Row by row, the kernel's outputs cut back to the rows are the reference's per-row quantities.

  Row `n` of the 2,000,000 sits, after the padding and the re-layout 128 rows to a line, at line `n / 128` and lane
  `n % 128` (`line · 128 + lane = n`), and the padding adds rows only beyond the last one; so reading the padded and
  re-laid arrays at a row's line and lane reads the argument at the row, and reading the flattened, cut output at
  row `n` reads the output array at that line and lane. Two laws then join the two programs at a row:

    the squared error — the kernel's lane sum over the row's eight columns of `(pred − truth)²` is the host's sum of
    the same eight terms from a zero start (`0 + s = s`);

    the weight — the bit `recon > 0 ∧ pid ≠ 0` widened to a 32-bit word and converted signed is the bit converted
    unsigned: both are 0 or 1.
-/
import proofs.«137671_j82386062672211_2_alg».proof.Proof.KernelBlocks
import proofs.«137671_j82386062672211_2_alg».proof.Proof.KernelHost
import proofs.«137671_j82386062672211_2_alg».proof.Proof.RefRun
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

namespace Cert.RowBridge

open Idealize.ShloMosaic Idealize.ShloMosaic.ValueIdx
open Cert.KernelIdeal.Blocks (wmseOf weightOf sqErr bitWeight)
open Cert.KernelIdeal.Host (padRows8 padRowsI flatCut)
open Cert.ReferenceIdeal.RefRun (rowWeight rowError)
open scoped BigOperators

/-- Row `n`'s line among the lines of 128 rows. -/
def lineOf (n : Fin 2000000) : Fin 15744 := ⟨n.val / 128, by have := n.isLt; omega⟩
/-- Row `n`'s place in its line. -/
def laneOf (n : Fin 2000000) : Fin 128 := ⟨n.val % 128, Nat.mod_lt _ (by decide)⟩

theorem line_lane (n : Fin 2000000) : (lineOf n).val * 128 + (laneOf n).val = n.val := by
  show n.val / 128 * 128 + n.val % 128 = n.val
  omega

/-- A [15744, 128] array laid flat and cut, at row `n`, is the array at the row's line and lane. -/
theorem flatCut_apply (X : FVec Ideal Cert.KernelIdeal.S15744x128 .f32) (n : Fin 2000000) :
    flatCut X (ix1 n) = X (ix2 (lineOf n) (laneOf n)) := by
  unfold flatCut
  refine (extractStridedSlice_apply _ _ _ (ix1 n) (ix1 (⟨n.val, by have := n.isLt; omega⟩ : Fin 2015232)) (fun a => ?_)).trans ?_
  · match a with
    | ⟨0, _⟩ => show n.val = 0 + n.val; omega
  · refine shapeCast_apply _ _ _ (ix2 (lineOf n) (laneOf n)) ?_
    rw [Shape.rowMajor_val_two, Shape.rowMajor_val_one]
    exact line_lane n

/-- The padded integer array at a row's line and lane is the array at the row. -/
theorem padRowsI_apply (x : IVec Cert.KernelIdeal.S2000000 32) (n : Fin 2000000) :
    padRowsI x (ix2 (lineOf n) (laneOf n)) = x (ix1 n) := by
  unfold padRowsI
  refine (shapeCast_apply _ _ (ix2 (lineOf n) (laneOf n)) (ix1 (⟨n.val, by have := n.isLt; omega⟩ : Fin 2015232)) ?_).trans ?_
  · rw [Shape.rowMajor_val_two, Shape.rowMajor_val_one]
    exact (line_lane n).symm
  · refine pad_apply_of_inside _ _ _ _ _ _ _ _ (ix1 n) (fun a => ?_)
    match a with
    | ⟨0, _⟩ => show n.val = 0 + n.val * (0 + 1); omega

/-- The padded float array at a row's line and lane, column `k`, is the array at the row, column `k`. -/
theorem padRows8_apply (x : FVec Ideal Cert.KernelIdeal.S2000000x8 .f32) (n : Fin 2000000) (k : Fin 8) :
    padRows8 (F := Ideal) x (ix3 (lineOf n) (laneOf n) k) = x (ix2 n k) := by
  unfold padRows8
  refine (shapeCast_apply _ _ (ix3 (lineOf n) (laneOf n) k) (ix2 (⟨n.val, by have := n.isLt; omega⟩ : Fin 2015232) k) ?_).trans ?_
  · rw [Shape.rowMajor_val_three, Shape.rowMajor_val_two]
    show n.val * 8 + k.val = ((lineOf n).val * 128 + (laneOf n).val) * 8 + k.val
    rw [line_lane n]
  · refine pad_apply_of_inside _ _ _ _ _ _ _ _ (ix2 n k) (fun a => ?_)
    match a with
    | ⟨0, _⟩ => show n.val = 0 + n.val * (0 + 1); omega
    | ⟨1, _⟩ => show k.val = 0 + k.val * (0 + 1); omega

/-- The host's sum from zero over a row's eight columns, at row `n`: the plain sum over the columns. -/
theorem hostRowSum_apply (y : FVec Ideal Cert.ReferenceIdeal.S2000000x8 .f32) (n : Fin 2000000) :
    Host.reduceAdd (F := Ideal) y (constant (F := Ideal) Cert.ReferenceIdeal.S_ .f32 0x00000000#32)
        Cert.ReferenceIdeal.Gen.reducesTo_S2000000x8_S2000000_d1 Cert.ReferenceIdeal.Gen.h_S_ (ix1 n)
      = ∑ k : Fin 8, y (ix2 n k) := by
  simp only [Host.reduceAdd, Ideal.hostReduceAdd_def]
  rw [Ideal.hostReduceAdd_single Cert.ReferenceIdeal.Gen.reducesTo_S2000000x8_S2000000_d1 (by decide)]
  refine Eq.trans (congrArg (· + _) (Ideal.ofBits_zero_f32)) ?_
  rw [zero_add]
  refine Finset.sum_congr rfl fun k _ => ?_
  exact congrArg y (funext fun a => Fin.ext (by match a with | ⟨0, _⟩ => rfl | ⟨1, _⟩ => rfl))

/-- The squared error of row `n`: the kernel's lane sum over the padded arrays is the reference's host sum over the
    arguments — the same eight terms, the reference's from a zero start. -/
theorem sqErr_row (P T : FVec Ideal Cert.KernelIdeal.S2000000x8 .f32) (n : Fin 2000000) :
    sqErr (padRows8 (F := Ideal) P) (padRows8 (F := Ideal) T) (lineOf n) (laneOf n) = rowError (F := Ideal) P T (ix1 n) := by
  unfold rowError
  rw [hostRowSum_apply]
  unfold sqErr
  refine Finset.sum_congr rfl fun k _ => ?_
  rw [padRows8_apply, padRows8_apply]
  rfl

/-- The weight of row `n`: a bit widened to a word and read signed is the bit read unsigned. -/
theorem weight_row (R Q : IVec Cert.KernelIdeal.S2000000 32) (n : Fin 2000000) :
    bitWeight (padRowsI R (ix2 (lineOf n) (laneOf n))) (padRowsI Q (ix2 (lineOf n) (laneOf n)))
      = rowWeight (F := Ideal) R Q (ix1 n) := by
  rw [padRowsI_apply, padRowsI_apply]
  show ((((IntOp.andi (IntOp.cmpi .sgt (R (ix1 n)) 0#32) (IntOp.cmpi .ne (Q (ix1 n)) 0#32)).setWidth 32).toInt : ℝ) : EReal)
    = (((IntOp.andi (IntOp.cmpi .sgt (R (ix1 n)) 0#32) (IntOp.cmpi .ne (Q (ix1 n)) 0#32)).toNat : ℝ) : EReal)
  rw [toInt_setWidth_bit]
  norm_cast

/-- The second region output, cut back to the rows, is the reference's weights. -/
theorem weights_eq (R Q : IVec Cert.KernelIdeal.S2000000 32) :
    flatCut (F := Ideal) (weightOf (padRowsI R) (padRowsI Q)) = rowWeight (F := Ideal) R Q := by
  funext i
  obtain ⟨n, rfl⟩ : ∃ n : Fin 2000000, i = ix1 n := ⟨i 0, eq_ix1 i⟩
  rw [flatCut_apply]
  exact weight_row R Q n

/-- The weighted-error array at a line and lane. -/
theorem wmseOf_apply (P T : FVec Ideal Cert.KernelIdeal.S15744x128x8 .f32) (R Q : IVec Cert.KernelIdeal.S15744x128 32)
    (a : Fin 15744) (b : Fin 128) :
    wmseOf P T R Q (ix2 a b) = sqErr P T a b * bitWeight (R (ix2 a b)) (Q (ix2 a b)) := rfl

/-- The first region output, cut back to the rows, is the reference's weighted squared errors. -/
theorem weighted_eq (P T : FVec Ideal Cert.KernelIdeal.S2000000x8 .f32) (R Q : IVec Cert.KernelIdeal.S2000000 32) :
    flatCut (F := Ideal) (wmseOf (padRows8 (F := Ideal) P) (padRows8 (F := Ideal) T) (padRowsI R) (padRowsI Q))
      = mulf (F := Ideal) (rowError (F := Ideal) P T) (rowWeight (F := Ideal) R Q) := by
  funext i
  obtain ⟨n, rfl⟩ : ∃ n : Fin 2000000, i = ix1 n := ⟨i 0, eq_ix1 i⟩
  rw [flatCut_apply, wmseOf_apply, sqErr_row, weight_row]
  exact (mulf_apply (rowError (F := Ideal) P T) (rowWeight (F := Ideal) R Q) (ix1 n)).symm

end Cert.RowBridge
end
-- ==== Proof.lean ====
/-
  The kernel and its reference compute one loss.

  Both programs take per-row predictions and true track parameters (eight columns each), a reconstructable mark and a
  particle id per row, and return `100 · (mean over the present particle groups of each group's mean squared error)`.
  The reference works on the 2,000,000 rows directly. The kernel program pads the rows with zeros to 123 · 128 · 128,
  lays them out 128 to a line, lets a pipelined region compute each row's weighted squared error and weight, lays the
  two outputs flat again, cuts them back to the 2,000,000 rows, and finishes with the reference's own group-wise
  reduction.

  The proof follows that shape. Proof/GroupLoss.lean names the group-wise reduction as one function `groupLoss` of the
  per-row weighted errors, the per-row weights and the ids. Proof/RefRun.lean reads the reference's run back: its result
  is `groupLoss` at the reference's per-row quantities. Proof/KernelHost.lean reads the kernel program's host
  operations: what the region finds (the padded arrays) and the result as `groupLoss` of the cut outputs.
  Proof/KernelBlocks.lean shows that after the region each output array is one array-wide function of the padded inputs.
  Proof/RowBridge.lean identifies, row by row, those functions cut back to the rows with the reference's per-row
  quantities: the padding and the re-layout are undone by index arithmetic, the lane sum over a row's eight columns is
  the host's sum from zero, and a bit widened to a word and read signed is the bit read unsigned. No other arithmetic
  on the extended reals is used, so the precondition is never opened.

  The three frames are the generated frame runs (the reference's: its run with the result dropped), and the
  idealization rewrote nothing, so its conjunct is trivial.
-/
import proofs.«137671_j82386062672211_2_alg».proof.Defs
import proofs.«137671_j82386062672211_2_alg».proof.Proof.Gen.Kernel
import proofs.«137671_j82386062672211_2_alg».proof.Proof.Gen.Kernel.Skeleton
import proofs.«137671_j82386062672211_2_alg».proof.Proof.Gen.Kernel.Launch
import proofs.«137671_j82386062672211_2_alg».proof.Proof.Gen.Kernel.Points
import proofs.«137671_j82386062672211_2_alg».proof.Proof.Gen.Kernel.Frame
import proofs.«137671_j82386062672211_2_alg».proof.Proof.Gen.KernelIdeal
import proofs.«137671_j82386062672211_2_alg».proof.Proof.Gen.KernelIdeal.Skeleton
import proofs.«137671_j82386062672211_2_alg».proof.Proof.Gen.KernelIdeal.Launch
import proofs.«137671_j82386062672211_2_alg».proof.Proof.Gen.KernelIdeal.Points
import proofs.«137671_j82386062672211_2_alg».proof.Proof.Gen.KernelIdeal.Frame
import proofs.«137671_j82386062672211_2_alg».proof.Proof.Gen.ReferenceIdeal
import proofs.«137671_j82386062672211_2_alg».proof.Proof.Gen.Pre_finite_inputs
import proofs.«137671_j82386062672211_2_alg».proof.Proof.GroupLoss
import proofs.«137671_j82386062672211_2_alg».proof.Proof.RefRun
import proofs.«137671_j82386062672211_2_alg».proof.Proof.KernelHost
import proofs.«137671_j82386062672211_2_alg».proof.Proof.KernelBlocks
import proofs.«137671_j82386062672211_2_alg».proof.Proof.RowBridge
import Idealize.ShloMosaic.Adequacy
import Idealize.ShloMosaic.Init

noncomputable section

namespace Cert.Proof

open Idealize.ShloMosaic Idealize.ShloMosaic.TcCoe Idealize.SL.Sem

section KernelValue

open Cert.KernelIdeal Cert.KernelIdeal.Gen
open Cert.ReferenceIdeal.RefRun (rowWeight rowError)

variable (m : (ℓ : Loc nD τ sig) → Buf (Elt Ideal) ℓ) (ρ : Dev nD → PrngReg)

/-- The loss at the reference's per-row quantities of the kernel program's own arguments. -/
abbrev lossOf (c : Dev nD) : FVec Ideal Cert.GroupLoss.One .f32 :=
  Cert.GroupLoss.groupLoss (F := Ideal)
    (mulf (F := Ideal) (rowError (F := Ideal) (m ((c : Thread nD τ).loc main_arg3)) (m ((c : Thread nD τ).loc main_arg6)))
      (rowWeight (F := Ideal) (m ((c : Thread nD τ).loc main_arg7)) (m ((c : Thread nD τ).loc main_arg5))))
    (rowWeight (F := Ideal) (m ((c : Thread nD τ).loc main_arg7)) (m ((c : Thread nD τ).loc main_arg5)))
    (m ((c : Thread nD τ).loc main_arg5))

/-- The kernel program's result after the run's tail is that loss: the tail is `groupLoss` of the region's outputs cut
    back to the rows, each output is an array-wide function of the padded arguments, and cut back to the rows those
    are the reference's per-row quantities. -/
theorem result_is_loss (c : Dev nD) :
    Pipeline.afterTail₀ cfgs (dats m) 0 (V0 m) [hostOps1, hostOps1_1, hostOps1_2, hostOps1_3, hostOps1_4] c main_v28
      = lossOf m c := by
  rw [Cert.KernelIdeal.Host.result_eq m c, Cert.KernelIdeal.Blocks.final4 m c, Cert.KernelIdeal.Blocks.final5 m c,
    Cert.KernelIdeal.Host.entry_pred m c, Cert.KernelIdeal.Host.entry_truth m c, Cert.KernelIdeal.Host.entry_recon m c,
    Cert.KernelIdeal.Host.entry_pid m c, Cert.RowBridge.weighted_eq, Cert.RowBridge.weights_eq]

/-- The kernel program's run, read: the result at the loss, the arguments unchanged. -/
theorem kernel_run : θ_run defs (onTc (τ := τ) (main (F := Ideal))) ⟨m, fun _ => 0, ρ⟩ fun r => ∀ c : Dev nD,
      r.2.mem ((c.tc : Thread nD τ).loc main_v28) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v28 (Pipeline.mem_restRefs_of main_v28 (by decide) (by decide))).trans (result_is_loss m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c)⟩)
    (run_main m ρ)

end KernelValue

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both programs end with the loss of the same per-row quantities. -/
theorem algebraic : Cert.algebraic_KernelIdeal_ReferenceIdeal := by
  intro m ρ m' ρ' _ hagree
  refine ⟨fun c => lossOf m c, kernel_run m ρ, ?_⟩
  refine (θ_run Cert.ReferenceIdeal.defs _ _).mono (fun _ h c => ⟨(h c).1.trans ?_, (h c).2⟩)
    (Cert.ReferenceIdeal.RefRun.run (F := Ideal) m' ρ')
  obtain ⟨-, -, -, e3, -, e5, e6, e7⟩ := hagree c
  rw [e3, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
